-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x128 .f32) (main_arg6 : FVec F S256 .f32) (main_arg7 : FVec F S256x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S256x128 .f32) (main_arg6 : FVec F S256 .f32) (main_arg7 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x256 : Shape := ⟨2, ![1, 256]⟩
abbrev S50000x256 : Shape := ⟨2, ![50000, 256]⟩
abbrev S5000x256 : Shape := ⟨2, ![5000, 256]⟩
abbrev S128x256 : Shape := ⟨2, ![128, 256]⟩

abbrev nBuf : Space → Nat
  | .hbm => 72
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S256x128, .f32⟩
  | .hbm, ⟨6, _⟩ => ⟨S256, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S1x800000, .i32⟩
  | .hbm, ⟨41, _⟩ => ⟨S800000, .i32⟩
  | .hbm, ⟨42, _⟩ => ⟨S1x800000, .i32⟩
  | .hbm, ⟨43, _⟩ => ⟨S800000, .i32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S1x256, .f32⟩
  | .hbm, ⟨71, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S256x128, .f32⟩
  | .local _ .vmem, ⟨14, _⟩ => ⟨S1x256, .f32⟩
  | .local _ .vmem, ⟨15, _⟩ => ⟨S256x128, .f32⟩
  | .local _ .vmem, ⟨16, _⟩ => ⟨S5000x256, .f32⟩
  | .local _ .vmem, ⟨17, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S256_S1x256 : S256.ShapeCasts S1x256
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x256 : Shape := ⟨2, ![128, 256]⟩
abbrev S50000x256 : Shape := ⟨2, ![50000, 256]⟩
abbrev S1x256 : Shape := ⟨2, ![1, 256]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S256x128, .f32⟩
  | .hbm, ⟨6, _⟩ => ⟨S256, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S128x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S1x800000, .i32⟩
  | .hbm, ⟨50, _⟩ => ⟨S800000, .i32⟩
  | .hbm, ⟨51, _⟩ => ⟨S1x800000, .i32⟩
  | .hbm, ⟨52, _⟩ => ⟨S800000, .i32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S50000, .f32⟩
  | .hbm, ⟨70, _⟩ => ⟨S800000x1, .i32⟩
  | .hbm, ⟨71, _⟩ => ⟨S50000, .f32⟩
  | .hbm, ⟨72, _⟩ => ⟨S_, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S128x256, .f32⟩
  | .hbm, ⟨80, _⟩ => ⟨S50000x256, .f32⟩
  | .hbm, ⟨81, _⟩ => ⟨S1x256, .f32⟩
  | .hbm, ⟨82, _⟩ => ⟨S50000x256, .f32⟩
  | .hbm, ⟨83, _⟩ => ⟨S50000x256, .f32⟩
  | .hbm, ⟨84, _⟩ => ⟨S128x256, .f32⟩
  | .hbm, ⟨85, _⟩ => ⟨S50000x256, .f32⟩
  | .hbm, ⟨86, _⟩ => ⟨S50000x256, .f32⟩
  | .hbm, ⟨87, _⟩ => ⟨S_, .f32⟩
  | .hbm, ⟨88, _⟩ => ⟨S50000x256, .f32⟩
  | .hbm, ⟨89, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_call2_v0 : Ref sig .tc := ⟨.hbm, 73, rfl⟩
abbrev main_call2_v1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call3_cst : Ref sig .tc := ⟨.hbm, 87, rfl⟩
abbrev main_call3_v0 : Ref sig .tc := ⟨.hbm, 88, rfl⟩
abbrev main_v61 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.KernelRun.lean ====
/-
  The idealized kernel program's run, with its result named.

  The program is two kernel regions among stretches of host operations.  Its generated frame certificate follows the
  buffers' contents from the launch to the return: `W8 m ρ c` is what core `c`'s buffers hold when @main returns.  The
  frame claim keeps of this only that the arguments end as launched; here the same run is read once more, keeping also
  that the result buffer ends at `W8 m ρ c` of its reference.  What that array IS, as a function of the arguments, is
  the business of the modules that import this one.
-/
import proofs.«166157_j37177236914658_1_alg».proof.Proof.Gen.KernelIdeal.Frame

set_option maxRecDepth 16384

noncomputable section

namespace Cert.KernelIdeal.SageRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_named : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v47 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.SageRun

end
-- ==== Proof.KernelBody.lean ====
/-
  The two kernel bodies' arithmetic, read at one entry of the output block.

  A body loads a block of 5000 rows of the aggregated features and of the node features, the two weight matrices
  whole and the bias row, and stores  max(A · Wlᵀ + X · Wrᵀ + bias, 0).  Each product is a matrix product into a zero
  accumulator whose right operand is the TRANSPOSED weight matrix, so its entry (p, q) is the sum over the 128 input
  features k of  block[p, k] · W[q, k];  rounding the operands to bf16 is the identity on the extended reals.  The
  bias row [1, D] is broadcast down the 5000 rows, and the clamp's constant is the zero word.
-/
import proofs.«166157_j37177236914658_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.SageBody

open Idealize.ShloMosaic Idealize.ShloMosaic.ValueIdx
open Cert.KernelIdeal Cert.KernelIdeal.Gen

/-! ## 128 output features -/

/-- The product's left index keeps the output's row. -/
theorem lhs128_0 (i : S5000x128.Idx) (z : dot_S5000x128_S128x128_S5000x128_1_0_0_1_n_n.contr.Idx) :
    (dot_S5000x128_S128x128_S5000x128_1_0_0_1_n_n.lhsIdx i z 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The product's right index keeps the output's column. -/
theorem rhs128_1 (i : S5000x128.Idx) (z : dot_S5000x128_S128x128_S5000x128_1_0_0_1_n_n.contr.Idx) :
    (dot_S5000x128_S128x128_S5000x128_1_0_0_1_n_n.rhsIdx i z 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times a transposed weight matrix, into a zero accumulator, at row `p` and column `q`: the sum over
    the input features of the row's entry times the weight matrix's entry in ITS row `q`. -/
theorem mm128_apply (l : FVec Ideal S5000x128 .bf16) (w : FVec Ideal S128x128 .bf16) (p : Fin 5000) (q : Fin 128) :
    matmul dot_S5000x128_S128x128_S5000x128_1_0_0_1_n_n none l (transpose S128x128 [1, 0] w transposes_S128x128_p1_0_S128x128)
        (constant (F := Ideal) S5000x128 .f32 0x00000000#32) (ix2 p q)
      = ∑ k : Fin 128, l (ix2 p k) * w (ix2 q k) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs128_1 _ _)
  rw [el, er, transpose_ix2_apply]

/-- The first body's stored value at entry (p, q) of its block. -/
theorem pay0_apply (x0 x1 : Vec Ideal S5000x128 .f32) (x2 x4 : Vec Ideal S128x128 .f32) (x3 : Vec Ideal S1x128 .f32) (p : Fin 5000) (q : Fin 128) :
    k0_pay1 (F := Ideal) x0 x1 x2 x4 x3 (ix2 p q)
      = max ((∑ k : Fin 128, x0 (ix2 p k) * x2 (ix2 q k)) + (∑ k : Fin 128, x1 (ix2 p k) * x4 (ix2 q k)) + x3 (ix2 (0 : Fin 1) q)) 0 := by
  unfold k0_pay1
  dsimp only
  rw [maximumf_apply, addf_apply, addf_apply, mm128_apply, mm128_apply, broadcast_apply, broadcastTo_1b_ab_apply,
    shapeCast_self, shapeCast_self]
  refine congrArg₂ max rfl ?_
  exact Ideal.ofBits_zero_f32

/-! ## 256 output features -/

/-- The product's left index keeps the output's row. -/
theorem lhs256_0 (i : S5000x256.Idx) (z : dot_S5000x128_S128x256_S5000x256_1_0_0_1_n_n.contr.Idx) :
    (dot_S5000x128_S128x256_S5000x256_1_0_0_1_n_n.lhsIdx i z 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- The product's right index keeps the output's column. -/
theorem rhs256_1 (i : S5000x256.Idx) (z : dot_S5000x128_S128x256_S5000x256_1_0_0_1_n_n.contr.Idx) :
    (dot_S5000x128_S128x256_S5000x256_1_0_0_1_n_n.rhsIdx i z 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- A block of rows times a transposed weight matrix, into a zero accumulator, at row `p` and column `q`: the sum over
    the input features of the row's entry times the weight matrix's entry in ITS row `q`. -/
theorem mm256_apply (l : FVec Ideal S5000x128 .bf16) (w : FVec Ideal S256x128 .bf16) (p : Fin 5000) (q : Fin 256) :
    matmul dot_S5000x128_S128x256_S5000x256_1_0_0_1_n_n none l (transpose S128x256 [1, 0] w transposes_S256x128_p1_0_S128x256)
        (constant (F := Ideal) S5000x256 .f32 0x00000000#32) (ix2 p q)
      = ∑ k : Fin 128, l (ix2 p k) * w (ix2 q k) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact lhs256_0 _ _
    | ⟨1, _⟩ => exact (dot_S5000x128_S128x256_S5000x256_1_0_0_1_n_n.lhsIdx_val_of_single rfl _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (dot_S5000x128_S128x256_S5000x256_1_0_0_1_n_n.rhsIdx_val_of_single rfl _ _).trans hk
    | ⟨1, _⟩ => exact rhs256_1 _ _)
  rw [el, er, transpose_ix2_apply]

/-- The second body's stored value at entry (p, q) of its block. -/
theorem pay1_apply (x0 x1 : Vec Ideal S5000x128 .f32) (x2 x4 : Vec Ideal S256x128 .f32) (x3 : Vec Ideal S1x256 .f32) (p : Fin 5000) (q : Fin 256) :
    k1_pay1 (F := Ideal) x0 x1 x2 x4 x3 (ix2 p q)
      = max ((∑ k : Fin 128, x0 (ix2 p k) * x2 (ix2 q k)) + (∑ k : Fin 128, x1 (ix2 p k) * x4 (ix2 q k)) + x3 (ix2 (0 : Fin 1) q)) 0 := by
  unfold k1_pay1
  dsimp only
  rw [maximumf_apply, addf_apply, addf_apply, mm256_apply, mm256_apply, broadcast_apply, broadcastTo_1b_ab_apply,
    shapeCast_self, shapeCast_self, shapeCast_self]
  refine congrArg₂ max rfl ?_
  exact Ideal.ofBits_zero_f32

end Cert.KernelIdeal.SageBody

end
-- ==== Proof.LayerSpec.lean ====
/-
  One GraphSAGE layer's dense part, over the extended reals and index by index.

  For a node `r` and an output feature `q` the layer's value is
      relu( Σ_k agg[r, k] · Wl[q, k]  +  Σ_k x[r, k] · Wr[q, k]  +  b[q] ),
  the neighbour mean `agg` and the node's own features `x` each contracted with a weight matrix along the 128 input
  features (the weights are stored output-feature-major, so the contraction runs over their SECOND axis: this is
  `agg · Wlᵀ` and `x · Wrᵀ`), the bias added, and the result clamped below at zero.  The first layer has 128 output
  features, the second 256.  Both programs of the certificate compute this function of the same five arrays; they
  differ only in the order in which the three summands are added, and addition of extended reals is commutative and
  associative, so no finiteness is needed (`add_right_comm`).
-/
import Idealize.ShloMosaic.PureOps.Ideal.Laws
import Idealize.ShloMosaic.Lib.ValueIdx

noncomputable section

open scoped BigOperators

namespace Cert.Sage

open Idealize.ShloMosaic Idealize.ShloMosaic.ValueIdx

/-- The first layer at node `r`, feature `q`: the two contractions over the 128 input features, the bias, the clamp. -/
def cell128 (agg x : (⟨2, ![50000, 128]⟩ : Shape).Idx → EReal) (wl wr : (⟨2, ![128, 128]⟩ : Shape).Idx → EReal)
    (b : (⟨1, ![128]⟩ : Shape).Idx → EReal) (r : Fin 50000) (q : Fin 128) : EReal :=
  max ((∑ k : Fin 128, agg (ix2 r k) * wl (ix2 q k)) + (∑ k : Fin 128, x (ix2 r k) * wr (ix2 q k)) + b (ix1 q)) 0

/-- The first layer as an array `[50000, 128]`. -/
def layer128 (agg x : (⟨2, ![50000, 128]⟩ : Shape).Idx → EReal) (wl wr : (⟨2, ![128, 128]⟩ : Shape).Idx → EReal)
    (b : (⟨1, ![128]⟩ : Shape).Idx → EReal) : (⟨2, ![50000, 128]⟩ : Shape).Idx → EReal :=
  fun i => cell128 agg x wl wr b ⟨(i 0).val, (i 0).isLt⟩ ⟨(i 1).val, (i 1).isLt⟩

/-- The second layer at node `r`, feature `q` (256 output features, 128 input features). -/
def cell256 (agg x : (⟨2, ![50000, 128]⟩ : Shape).Idx → EReal) (wl wr : (⟨2, ![256, 128]⟩ : Shape).Idx → EReal)
    (b : (⟨1, ![256]⟩ : Shape).Idx → EReal) (r : Fin 50000) (q : Fin 256) : EReal :=
  max ((∑ k : Fin 128, agg (ix2 r k) * wl (ix2 q k)) + (∑ k : Fin 128, x (ix2 r k) * wr (ix2 q k)) + b (ix1 q)) 0

/-- The second layer as an array `[50000, 256]`. -/
def layer256 (agg x : (⟨2, ![50000, 128]⟩ : Shape).Idx → EReal) (wl wr : (⟨2, ![256, 128]⟩ : Shape).Idx → EReal)
    (b : (⟨1, ![256]⟩ : Shape).Idx → EReal) : (⟨2, ![50000, 256]⟩ : Shape).Idx → EReal :=
  fun i => cell256 agg x wl wr b ⟨(i 0).val, (i 0).isLt⟩ ⟨(i 1).val, (i 1).isLt⟩

/-- The one row of a `[1, D]` array as a vector `[D]` (a bias kept as a row). -/
def row0 {D : ℕ} (b2 : (⟨2, ![1, D]⟩ : Shape).Idx → EReal) : (⟨1, ![D]⟩ : Shape).Idx → EReal :=
  fun i => b2 (ix2 (0 : Fin 1) ⟨(i 0).val, (i 0).isLt⟩)

theorem row0_ix1 {D : ℕ} (b2 : (⟨2, ![1, D]⟩ : Shape).Idx → EReal) (q : Fin D) : row0 b2 (ix1 q) = b2 (ix2 (0 : Fin 1) q) := rfl

theorem layer128_ix2 (agg x : (⟨2, ![50000, 128]⟩ : Shape).Idx → EReal) (wl wr : (⟨2, ![128, 128]⟩ : Shape).Idx → EReal)
    (b : (⟨1, ![128]⟩ : Shape).Idx → EReal) (r : Fin 50000) (q : Fin 128) :
    layer128 agg x wl wr b (ix2 r q) = cell128 agg x wl wr b r q := rfl

theorem layer256_ix2 (agg x : (⟨2, ![50000, 128]⟩ : Shape).Idx → EReal) (wl wr : (⟨2, ![256, 128]⟩ : Shape).Idx → EReal)
    (b : (⟨1, ![256]⟩ : Shape).Idx → EReal) (r : Fin 50000) (q : Fin 256) :
    layer256 agg x wl wr b (ix2 r q) = cell256 agg x wl wr b r q := rfl

/-- Equal arguments give equal layers. -/
theorem layer128_congr {agg agg' x x' : (⟨2, ![50000, 128]⟩ : Shape).Idx → EReal} {wl wl' wr wr' : (⟨2, ![128, 128]⟩ : Shape).Idx → EReal}
    {b b' : (⟨1, ![128]⟩ : Shape).Idx → EReal} (ha : agg = agg') (hx : x = x') (hl : wl = wl') (hr : wr = wr') (hb : b = b') :
    layer128 agg x wl wr b = layer128 agg' x' wl' wr' b' := by subst ha hx hl hr hb; rfl
theorem layer256_congr {agg agg' x x' : (⟨2, ![50000, 128]⟩ : Shape).Idx → EReal} {wl wl' wr wr' : (⟨2, ![256, 128]⟩ : Shape).Idx → EReal}
    {b b' : (⟨1, ![256]⟩ : Shape).Idx → EReal} (ha : agg = agg') (hx : x = x') (hl : wl = wl') (hr : wr = wr') (hb : b = b') :
    layer256 agg x wl wr b = layer256 agg' x' wl' wr' b' := by subst ha hx hl hr hb; rfl

/-- The same cell with the bias added BEFORE the second contraction (the other program's order of the three summands). -/
theorem cell128_bias_first (agg x : (⟨2, ![50000, 128]⟩ : Shape).Idx → EReal) (wl wr : (⟨2, ![128, 128]⟩ : Shape).Idx → EReal)
    (b : (⟨1, ![128]⟩ : Shape).Idx → EReal) (r : Fin 50000) (q : Fin 128) :
    max ((∑ k : Fin 128, agg (ix2 r k) * wl (ix2 q k)) + b (ix1 q) + (∑ k : Fin 128, x (ix2 r k) * wr (ix2 q k))) 0
      = cell128 agg x wl wr b r q := by
  unfold cell128; rw [add_right_comm]

theorem cell256_bias_first (agg x : (⟨2, ![50000, 128]⟩ : Shape).Idx → EReal) (wl wr : (⟨2, ![256, 128]⟩ : Shape).Idx → EReal)
    (b : (⟨1, ![256]⟩ : Shape).Idx → EReal) (r : Fin 50000) (q : Fin 256) :
    max ((∑ k : Fin 128, agg (ix2 r k) * wl (ix2 q k)) + b (ix1 q) + (∑ k : Fin 128, x (ix2 r k) * wr (ix2 q k))) 0
      = cell256 agg x wl wr b r q := by
  unfold cell256; rw [add_right_comm]

end Cert.Sage

end
-- ==== Proof.KernelBlocks.lean ====
/-
  From blocks to arrays: what each kernel region leaves in its output array, as ONE function of the arrays it is
  entered with.

  A region's grid has ten points.  At point `t` the two row-tiled inputs are rows `5000·t … 5000·t + 4999` of their
  arrays (all 128 columns), the weight matrices and the bias row are read whole, and the output block is the same rows
  of the output array.  So what point `t` writes back, read at row `p` of the block, is the layer function at row
  `5000·t + p` of the whole arrays; every row `r` of the output lies in the block of point `r / 5000`; hence the array
  after the region is the layer function everywhere.  The arrays are a parameter `V` (the buffers' contents when the
  region is entered), which the run instantiates per region.
-/
import proofs.«166157_j37177236914658_1_alg».proof.Proof.Gen.KernelIdeal.Frame
import proofs.«166157_j37177236914658_1_alg».proof.Proof.KernelBody
import proofs.«166157_j37177236914658_1_alg».proof.Proof.LayerSpec

set_option maxRecDepth 16384

noncomputable section

open scoped BigOperators

namespace Cert.KernelIdeal.SageBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.SageBody Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps over the grid: the row-tiled windows are at block row `t`, block column 0; the whole
    windows at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the first input's block at point `t` is row `5000·t + p` of its array. -/
theorem blk0_0 (c : Dev nD) (t : Fin cfg0.N) (p : Fin 5000) (k : Fin 128) (r : Fin 50000) (hr : r.val = 5000 * t.val + p.val) :
    (iblk0 V c 0 t : Vec Ideal S5000x128 .f32) (ix2 p k) = (V c main_v21 : S50000x128.Idx → EReal) (ix2 r k) := by
  obtain ⟨e0, e1, -⟩ := idx0 t
  show (V c main_v21 : S50000x128.Idx → EReal) (((cfg0.win 0).blk t).view.emb (ix2 p k)) = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The same for the second input. -/
theorem blk0_1 (c : Dev nD) (t : Fin cfg0.N) (p : Fin 5000) (k : Fin 128) (r : Fin 50000) (hr : r.val = 5000 * t.val + p.val) :
    (iblk0 V c 1 t : Vec Ideal S5000x128 .f32) (ix2 p k) = (V c main_arg0 : S50000x128.Idx → EReal) (ix2 r k) := by
  obtain ⟨-, -, e0, e1, -⟩ := idx0 t
  show (V c main_arg0 : S50000x128.Idx → EReal) (((cfg0.win 1).blk t).view.emb (ix2 p k)) = _
  refine congrArg _ (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The first weight matrix's block is the matrix. -/
theorem blk0_2 (c : Dev nD) (t : Fin cfg0.N) (q : Fin 128) (k : Fin 128) :
    (iblk0 V c 2 t : Vec Ideal S128x128 .f32) (ix2 q k) = (V c main_arg2 : S128x128.Idx → EReal) (ix2 q k) := by
  obtain ⟨-, -, -, -, e0, e1, -⟩ := idx0 t
  show (V c main_arg2 : S128x128.Idx → EReal) (((cfg0.win 2).blk t).view.emb (ix2 q k)) = _
  refine congrArg _ (funext fun a => Fin.ext ?_)
  match a with
  | ⟨0, _⟩ => show win0_2.index t (0 : Fin 2) * 128 + 1 * q.val = q.val; rw [e0]; omega
  | ⟨1, _⟩ => show win0_2.index t (1 : Fin 2) * 128 + 1 * k.val = k.val; rw [e1]; omega

/-- The bias row's block is the row. -/
theorem blk0_3 (c : Dev nD) (t : Fin cfg0.N) (q : Fin 128) :
    (iblk0 V c 3 t : Vec Ideal S1x128 .f32) (ix2 (0 : Fin 1) q) = (V c main_v22 : S1x128.Idx → EReal) (ix2 (0 : Fin 1) q) := by
  obtain ⟨-, -, -, -, -, -, e0, e1, -⟩ := idx0 t
  show (V c main_v22 : S1x128.Idx → EReal) (((cfg0.win 3).blk t).view.emb (ix2 (0 : Fin 1) q)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-- The second weight matrix's block is the matrix. -/
theorem blk0_4 (c : Dev nD) (t : Fin cfg0.N) (q : Fin 128) (k : Fin 128) :
    (iblk0 V c 4 t : Vec Ideal S128x128 .f32) (ix2 q k) = (V c main_arg4 : S128x128.Idx → EReal) (ix2 q k) := by
  obtain ⟨-, -, -, -, -, -, -, -, e0, e1, -⟩ := idx0 t
  show (V c main_arg4 : S128x128.Idx → EReal) (((cfg0.win 4).blk t).view.emb (ix2 q k)) = _
  refine congrArg _ (funext fun a => Fin.ext ?_)
  match a with
  | ⟨0, _⟩ => show win0_4.index t (0 : Fin 2) * 128 + 1 * q.val = q.val; rw [e0]; omega
  | ⟨1, _⟩ => show win0_4.index t (1 : Fin 2) * 128 + 1 * k.val = k.val; rw [e1]; omega

/-- What the region's output array ends holding: the layer function of the arrays the region is entered with. -/
abbrev G0 (c : Dev nD) : S50000x128.Idx → EReal :=
  layer128 (V c main_v21 : S50000x128.Idx → EReal) (V c main_arg0 : S50000x128.Idx → EReal) (V c main_arg2 : S128x128.Idx → EReal)
    (V c main_arg4 : S128x128.Idx → EReal) (row0 (V c main_v22 : S1x128.Idx → EReal))

/-- WHAT POINT `t` WRITES BACK is block `t` of the layer function of the whole arrays. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  have ht : t.val < 10 := lt_of_lt_of_eq t.isLt N_0
  obtain ⟨-, -, -, -, -, -, -, -, -, -, e50, e51⟩ := idx0 t
  have hemb : ((cfg0.win 5).blk t).view.emb (ix2 p q) = ix2 (⟨5000 * t.val + p.val, by omega⟩ : Fin 50000) q :=
    funext fun a => Fin.ext (by
      match a with
      | ⟨0, _⟩ => show win0_5.index t (0 : Fin 2) * 5000 + 1 * p.val = 5000 * t.val + p.val; rw [e50]; omega
      | ⟨1, _⟩ => show win0_5.index t (1 : Fin 2) * 128 + 1 * q.val = q.val; rw [e51]; omega)
  show k0_pay1 (iblk0 V c 0 t) (iblk0 V c 1 t) (iblk0 V c 2 t) (iblk0 V c 4 t) (iblk0 V c 3 t) (ix2 p q)
    = G0 V c (((cfg0.win 5).blk t).view.emb (ix2 p q))
  rw [hemb]
  refine (pay0_apply (iblk0 V c 0 t) (iblk0 V c 1 t) (iblk0 V c 2 t) (iblk0 V c 4 t) (iblk0 V c 3 t) p q).trans ?_
  show _ = cell128 _ _ _ _ _ (⟨5000 * t.val + p.val, by omega⟩ : Fin 50000) q
  unfold cell128
  refine congrArg₂ max (congrArg₂ (· + ·) (congrArg₂ (· + ·) (Finset.sum_congr rfl fun k _ => ?_) (Finset.sum_congr rfl fun k _ => ?_)) ?_) rfl
  · exact congrArg₂ (· * ·) (blk0_0 V c t p k _ rfl) (blk0_2 V c t q k)
  · exact congrArg₂ (· * ·) (blk0_1 V c t p k _ rfl) (blk0_4 V c t q k)
  · exact blk0_3 V c t q

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- THE ARRAY after the region: the layer function everywhere (row `r` is covered by point `r / 5000`). -/
theorem arr0 (c : Dev nD) : (dat0 V c).arrAt 5 cfg0.N = G0 V c :=
  (dat0 V c).arrAt_eq_of_cover 5 (G0 V c) (fun t _ => flushed0 V c t) fun i => by
    have h0 : (i 0).val < 50000 := (i 0).isLt
    have h1 : (i 1).val < 128 := (i 1).isLt
    have hlt : (i 0).val / 5000 < cfg0.N := lt_of_lt_of_eq (by omega : (i 0).val / 5000 < 10) N_0.symm
    refine ⟨⟨(i 0).val / 5000, hlt⟩, flush0_5 _, ?_⟩
    rw [mem_blk0]
    obtain ⟨-, -, -, -, -, -, -, -, -, -, e50, e51⟩ := idx0 ⟨(i 0).val / 5000, hlt⟩
    have e50' : win0_5.index ⟨(i 0).val / 5000, hlt⟩ (0 : Fin 2) = (i 0).val / 5000 := e50
    intro a
    match a with
    | ⟨0, _⟩ =>
      show win0_5.index ⟨(i 0).val / 5000, _⟩ (0 : Fin 2) * 5000 ≤ (i 0).val ∧ (i 0).val < win0_5.index ⟨(i 0).val / 5000, _⟩ (0 : Fin 2) * 5000 + 5000
      rw [e50']; omega
    | ⟨1, _⟩ =>
      show win0_5.index ⟨(i 0).val / 5000, _⟩ (1 : Fin 2) * 128 ≤ (i 1).val ∧ (i 1).val < win0_5.index ⟨(i 0).val / 5000, _⟩ (1 : Fin 2) * 128 + 128
      rw [e51]; omega

/-! ## Region 1 -/

/-- The printed index maps over the grid: the row-tiled windows are at block row `t`, block column 0; the whole
    windows at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the first input's block at point `t` is row `5000·t + p` of its array. -/
theorem blk1_0 (c : Dev nD) (t : Fin cfg1.N) (p : Fin 5000) (k : Fin 128) (r : Fin 50000) (hr : r.val = 5000 * t.val + p.val) :
    (iblk1 V c 0 t : Vec Ideal S5000x128 .f32) (ix2 p k) = (V c main_v45 : S50000x128.Idx → EReal) (ix2 r k) := by
  obtain ⟨e0, e1, -⟩ := idx1 t
  show (V c main_v45 : S50000x128.Idx → EReal) (((cfg1.win 0).blk t).view.emb (ix2 p k)) = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The same for the second input. -/
theorem blk1_1 (c : Dev nD) (t : Fin cfg1.N) (p : Fin 5000) (k : Fin 128) (r : Fin 50000) (hr : r.val = 5000 * t.val + p.val) :
    (iblk1 V c 1 t : Vec Ideal S5000x128 .f32) (ix2 p k) = (V c main_v23 : S50000x128.Idx → EReal) (ix2 r k) := by
  obtain ⟨-, -, e0, e1, -⟩ := idx1 t
  show (V c main_v23 : S50000x128.Idx → EReal) (((cfg1.win 1).blk t).view.emb (ix2 p k)) = _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The first weight matrix's block is the matrix. -/
theorem blk1_2 (c : Dev nD) (t : Fin cfg1.N) (q : Fin 256) (k : Fin 128) :
    (iblk1 V c 2 t : Vec Ideal S256x128 .f32) (ix2 q k) = (V c main_arg5 : S256x128.Idx → EReal) (ix2 q k) := by
  obtain ⟨-, -, -, -, e0, e1, -⟩ := idx1 t
  show (V c main_arg5 : S256x128.Idx → EReal) (((cfg1.win 2).blk t).view.emb (ix2 q k)) = _
  refine congrArg _ (funext fun a => Fin.ext ?_)
  match a with
  | ⟨0, _⟩ => show win1_2.index t (0 : Fin 2) * 256 + 1 * q.val = q.val; rw [e0]; omega
  | ⟨1, _⟩ => show win1_2.index t (1 : Fin 2) * 128 + 1 * k.val = k.val; rw [e1]; omega

/-- The bias row's block is the row. -/
theorem blk1_3 (c : Dev nD) (t : Fin cfg1.N) (q : Fin 256) :
    (iblk1 V c 3 t : Vec Ideal S1x256 .f32) (ix2 (0 : Fin 1) q) = (V c main_v46 : S1x256.Idx → EReal) (ix2 (0 : Fin 1) q) := by
  obtain ⟨-, -, -, -, -, -, e0, e1, -⟩ := idx1 t
  show (V c main_v46 : S1x256.Idx → EReal) (((cfg1.win 3).blk t).view.emb (ix2 (0 : Fin 1) q)) = _
  refine congrArg _ (funext fun a => Fin.ext ?_)
  match a with
  | ⟨0, _⟩ => show win1_3.index t (0 : Fin 2) * 1 + 1 * 0 = 0; rw [e0]
  | ⟨1, _⟩ => show win1_3.index t (1 : Fin 2) * 256 + 1 * q.val = q.val; rw [e1]; omega

/-- The second weight matrix's block is the matrix. -/
theorem blk1_4 (c : Dev nD) (t : Fin cfg1.N) (q : Fin 256) (k : Fin 128) :
    (iblk1 V c 4 t : Vec Ideal S256x128 .f32) (ix2 q k) = (V c main_arg7 : S256x128.Idx → EReal) (ix2 q k) := by
  obtain ⟨-, -, -, -, -, -, -, -, e0, e1, -⟩ := idx1 t
  show (V c main_arg7 : S256x128.Idx → EReal) (((cfg1.win 4).blk t).view.emb (ix2 q k)) = _
  refine congrArg _ (funext fun a => Fin.ext ?_)
  match a with
  | ⟨0, _⟩ => show win1_4.index t (0 : Fin 2) * 256 + 1 * q.val = q.val; rw [e0]; omega
  | ⟨1, _⟩ => show win1_4.index t (1 : Fin 2) * 128 + 1 * k.val = k.val; rw [e1]; omega

/-- What the region's output array ends holding: the layer function of the arrays the region is entered with. -/
abbrev G1 (c : Dev nD) : S50000x256.Idx → EReal :=
  layer256 (V c main_v45 : S50000x128.Idx → EReal) (V c main_v23 : S50000x128.Idx → EReal) (V c main_arg5 : S256x128.Idx → EReal)
    (V c main_arg7 : S256x128.Idx → EReal) (row0 (V c main_v46 : S1x256.Idx → EReal))

/-- WHAT POINT `t` WRITES BACK is block `t` of the layer function of the whole arrays. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S256x128) hz, View.ld_unit_zero (S := S1x256) hz]
  refine funext fun (j : S5000x256.Idx) => ?_
  obtain ⟨p, q, rfl⟩ : ∃ (p : Fin 5000) (q : Fin 256), j = ix2 p q := ⟨j 0, j 1, eq_ix2 j⟩
  have ht : t.val < 10 := lt_of_lt_of_eq t.isLt N_1
  obtain ⟨-, -, -, -, -, -, -, -, -, -, e50, e51⟩ := idx1 t
  have hemb : ((cfg1.win 5).blk t).view.emb (ix2 p q) = ix2 (⟨5000 * t.val + p.val, by omega⟩ : Fin 50000) q :=
    funext fun a => Fin.ext (by
      match a with
      | ⟨0, _⟩ => show win1_5.index t (0 : Fin 2) * 5000 + 1 * p.val = 5000 * t.val + p.val; rw [e50]; omega
      | ⟨1, _⟩ => show win1_5.index t (1 : Fin 2) * 256 + 1 * q.val = q.val; rw [e51]; omega)
  show k1_pay1 (iblk1 V c 0 t) (iblk1 V c 1 t) (iblk1 V c 2 t) (iblk1 V c 4 t) (iblk1 V c 3 t) (ix2 p q)
    = G1 V c (((cfg1.win 5).blk t).view.emb (ix2 p q))
  rw [hemb]
  refine (pay1_apply (iblk1 V c 0 t) (iblk1 V c 1 t) (iblk1 V c 2 t) (iblk1 V c 4 t) (iblk1 V c 3 t) p q).trans ?_
  show _ = cell256 _ _ _ _ _ (⟨5000 * t.val + p.val, by omega⟩ : Fin 50000) q
  unfold cell256
  refine congrArg₂ max (congrArg₂ (· + ·) (congrArg₂ (· + ·) (Finset.sum_congr rfl fun k _ => ?_) (Finset.sum_congr rfl fun k _ => ?_)) ?_) rfl
  · exact congrArg₂ (· * ·) (blk1_0 V c t p k _ rfl) (blk1_2 V c t q k)
  · exact congrArg₂ (· * ·) (blk1_1 V c t p k _ rfl) (blk1_4 V c t q k)
  · exact blk1_3 V c t q

/-- An index of the output array is in point `t`'s block iff each coordinate is in the block's range on its axis. -/
theorem mem_blk1 (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v47).slice (win1_5.rect t)).set ↔ _
  rw [View.set_slice_whole, Rect.mem_set_unit]
  exact Iff.rfl

/-- THE ARRAY after the region: the layer function everywhere (row `r` is covered by point `r / 5000`). -/
theorem arr1 (c : Dev nD) : (dat1 V c).arrAt 5 cfg1.N = G1 V c :=
  (dat1 V c).arrAt_eq_of_cover 5 (G1 V c) (fun t _ => flushed1 V c t) fun i => by
    have h0 : (i 0).val < 50000 := (i 0).isLt
    have h1 : (i 1).val < 256 := (i 1).isLt
    have hlt : (i 0).val / 5000 < cfg1.N := lt_of_lt_of_eq (by omega : (i 0).val / 5000 < 10) N_1.symm
    refine ⟨⟨(i 0).val / 5000, hlt⟩, flush1_5 _, ?_⟩
    rw [mem_blk1]
    obtain ⟨-, -, -, -, -, -, -, -, -, -, e50, e51⟩ := idx1 ⟨(i 0).val / 5000, hlt⟩
    have e50' : win1_5.index ⟨(i 0).val / 5000, hlt⟩ (0 : Fin 2) = (i 0).val / 5000 := e50
    intro a
    match a with
    | ⟨0, _⟩ =>
      show win1_5.index ⟨(i 0).val / 5000, _⟩ (0 : Fin 2) * 5000 ≤ (i 0).val ∧ (i 0).val < win1_5.index ⟨(i 0).val / 5000, _⟩ (0 : Fin 2) * 5000 + 5000
      rw [e50']; omega
    | ⟨1, _⟩ =>
      show win1_5.index ⟨(i 0).val / 5000, _⟩ (1 : Fin 2) * 256 ≤ (i 1).val ∧ (i 1).val < win1_5.index ⟨(i 0).val / 5000, _⟩ (1 : Fin 2) * 256 + 256
      rw [e51]; omega

end Cert.KernelIdeal.SageBlocks

end
-- ==== Proof.RefValue.lean ====
/-
  The reference's result as the two layers applied in turn.

  The reference computes, twice, the neighbour mean of a feature array (a gather along the edges' sources, a
  scatter-add into their destinations, a division by the clamped in-degree) followed by
  `relu(mean · Wlᵀ + b + x · Wrᵀ)`.  Read index by index, each dense part is the layer function of LayerSpec —
  a `dot_general` against a transposed weight matrix is the sum over the input features of products with the
  matrix's OWN row, the bias broadcast reads the bias at the column, and the three summands are re-ordered by
  commutativity and associativity of the extended reals' addition (`cell128_bias_first`).  The neighbour mean is
  not opened: it is the same function `mean` of a feature array and the edge list in both layers.
-/
import proofs.«166157_j37177236914658_1_alg».proof.Proof.Gen.ReferenceIdeal.Read
import proofs.«166157_j37177236914658_1_alg».proof.Proof.LayerSpec

set_option maxRecDepth 16384

noncomputable section

open scoped BigOperators

namespace Cert.ReferenceIdeal.SageRef

open Idealize.ShloMosaic Idealize.ShloMosaic.ValueIdx
open Cert.ReferenceIdeal Cert.ReferenceIdeal.Gen Cert.ReferenceIdeal.Read Cert.Sage

/-- The neighbour mean of a feature array along the edge list: gather the sources' rows, add them into the
    destinations' rows, divide each row by the destination's in-degree clamped below at one. -/
def mean {F : FTy → Type} [FloatOps F] (feat : (⟨S50000x128, .f32⟩ : BufTy).Contents (Elt F))
    (edges : (⟨S2x800000, .i32⟩ : BufTy).Contents (Elt F)) : (⟨S50000x128, .f32⟩ : BufTy).Contents (Elt F) :=
  val_main_v21 (F := F) feat edges

/-! ## The index functions of the first layer's operations, at `(r, q)` -/

theorem lidx23 (r : Fin 50000) (q k : Fin 128) : lidx_main_v23 (ix2 r q) k = ix2 r k :=
  funext fun a => Fin.ext (by match a with | ⟨0, _⟩ => rfl | ⟨1, _⟩ => rfl)
theorem ridx23 (r : Fin 50000) (q k : Fin 128) : idx_main_v22 (ridx_main_v23 (ix2 r q) k) = ix2 q k :=
  funext fun a => Fin.ext (by match a with | ⟨0, _⟩ => rfl | ⟨1, _⟩ => rfl)
theorem lidx28 (r : Fin 50000) (q k : Fin 128) : lidx_main_v28 (ix2 r q) k = ix2 r k :=
  funext fun a => Fin.ext (by match a with | ⟨0, _⟩ => rfl | ⟨1, _⟩ => rfl)
theorem ridx28 (r : Fin 50000) (q k : Fin 128) : idx_main_v27 (ridx_main_v28 (ix2 r q) k) = ix2 q k :=
  funext fun a => Fin.ext (by match a with | ⟨0, _⟩ => rfl | ⟨1, _⟩ => rfl)
theorem bidx25 (r : Fin 50000) (q : Fin 128) : idx_main_v24 (idx_main_v25 (ix2 r q)) = ix1 q :=
  funext fun a => Fin.ext (by match a with | ⟨0, _⟩ => rfl)

/-- The first layer of the reference is the layer function of the neighbour mean and the features. -/
theorem layer1 (x0 : S50000x128.Idx → EReal) (x1 : S2x800000.Idx → BitVec 32) (x2 : S128x128.Idx → EReal) (x3 : S128.Idx → EReal)
    (x4 : S128x128.Idx → EReal) :
    val_main_v30 (F := Ideal) x0 x1 x2 x3 x4 = layer128 (mean (F := Ideal) x0 x1) x0 x2 x4 x3 := by
  funext i
  obtain ⟨r, q, rfl⟩ : ∃ (r : Fin 50000) (q : Fin 128), i = ix2 r q := ⟨i 0, i 1, eq_ix2 i⟩
  rw [layer128_ix2, ← cell128_bias_first]
  rw [val_main_v30_apply, val_main_v29_apply, val_main_v26_apply, val_main_v23_apply, val_main_v28_apply, val_main_v25_apply,
    val_main_v24_apply, val_main_call1_v0_apply, val_main_call1_cst_apply]
  simp only [val_main_v22_apply, val_main_v27_apply, lidx23, ridx23, lidx28, ridx28, bidx25]
  exact congrArg₂ max rfl Ideal.ofBits_zero_f32

/-! ## The index functions of the second layer's operations, at `(r, q)` -/

theorem lidx54 (r : Fin 50000) (q : Fin 256) (k : Fin 128) : lidx_main_v54 (ix2 r q) k = ix2 r k :=
  funext fun a => Fin.ext (by match a with | ⟨0, _⟩ => rfl | ⟨1, _⟩ => rfl)
theorem ridx54 (r : Fin 50000) (q : Fin 256) (k : Fin 128) : idx_main_v53 (ridx_main_v54 (ix2 r q) k) = ix2 q k :=
  funext fun a => Fin.ext (by match a with | ⟨0, _⟩ => rfl | ⟨1, _⟩ => rfl)
theorem lidx59 (r : Fin 50000) (q : Fin 256) (k : Fin 128) : lidx_main_v59 (ix2 r q) k = ix2 r k :=
  funext fun a => Fin.ext (by match a with | ⟨0, _⟩ => rfl | ⟨1, _⟩ => rfl)
theorem ridx59 (r : Fin 50000) (q : Fin 256) (k : Fin 128) : idx_main_v58 (ridx_main_v59 (ix2 r q) k) = ix2 q k :=
  funext fun a => Fin.ext (by match a with | ⟨0, _⟩ => rfl | ⟨1, _⟩ => rfl)
theorem bidx56 (r : Fin 50000) (q : Fin 256) : idx_main_v55 (idx_main_v56 (ix2 r q)) = ix1 q :=
  funext fun a => Fin.ext (by match a with | ⟨0, _⟩ => rfl)

/-- The second neighbour mean is `mean` of the first layer's output: the same operations on another array. -/
theorem mean2 {F : FTy → Type} [FloatOps F] (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F)) (x4 : (⟨S128x128, .f32⟩ : BufTy).Contents (Elt F)) :
    val_main_v52 (F := F) x0 x1 x2 x3 x4 = mean (val_main_v30 (F := F) x0 x1 x2 x3 x4) x1 := rfl

/-- The reference's result is the second layer function of the second neighbour mean and the first layer's output. -/
theorem layer2 (x0 : S50000x128.Idx → EReal) (x1 : S2x800000.Idx → BitVec 32) (x2 : S128x128.Idx → EReal) (x3 : S128.Idx → EReal)
    (x4 : S128x128.Idx → EReal) (x5 : S256x128.Idx → EReal) (x6 : S256.Idx → EReal) (x7 : S256x128.Idx → EReal) :
    val_main_v61 (F := Ideal) x0 x1 x2 x3 x4 x5 x6 x7
      = layer256 (mean (F := Ideal) (layer128 (mean (F := Ideal) x0 x1) x0 x2 x4 x3) x1) (layer128 (mean (F := Ideal) x0 x1) x0 x2 x4 x3) x5 x7 x6 := by
  rw [← layer1 x0 x1 x2 x3 x4, ← mean2 (F := Ideal) x0 x1 x2 x3 x4]
  funext i
  obtain ⟨r, q, rfl⟩ : ∃ (r : Fin 50000) (q : Fin 256), i = ix2 r q := ⟨i 0, i 1, eq_ix2 i⟩
  rw [layer256_ix2, ← cell256_bias_first]
  rw [val_main_v61_apply, val_main_v60_apply, val_main_v57_apply, val_main_v54_apply, val_main_v59_apply, val_main_v56_apply,
    val_main_v55_apply, val_main_call3_v0_apply, val_main_call3_cst_apply]
  simp only [val_main_v53_apply, val_main_v58_apply, lidx54, ridx54, lidx59, ridx59, bidx56]
  exact congrArg₂ max rfl Ideal.ofBits_zero_f32

end Cert.ReferenceIdeal.SageRef

end
-- ==== Proof.KernelValue.lean ====
/-
  The idealized kernel program's result as the two layers applied in turn.

  The buffers' contents are followed through @main: the host operations before the first region leave the neighbour
  mean of the node features in the region's first operand (the very operations of the reference, so the same function
  `mean`) and the bias reshaped to a row; the first region leaves the first layer function of its operands in its
  output (KernelBlocks); the host operations between the regions take the neighbour mean of THAT array; the second
  region leaves the second layer function.  No host operation writes an argument, so every argument a region reads is
  still the launch memory's.  What the host operations leave is read for ANY float values (the operations are the
  same text in both programs, never opened); only the regions' outputs are read on the extended reals.
-/
import proofs.«166157_j37177236914658_1_alg».proof.Proof.Gen.KernelIdeal.Frame
import proofs.«166157_j37177236914658_1_alg».proof.Proof.KernelBlocks
import proofs.«166157_j37177236914658_1_alg».proof.Proof.RefValue

set_option maxRecDepth 16384

noncomputable section

namespace Cert.KernelIdeal.SageValue

open Idealize.ShloMosaic Idealize.ShloMosaic.TcCoe Idealize.ShloMosaic.ValueIdx Idealize.SL.Sem Idealize.ShloMosaic.StableHlo
open Cert.KernelIdeal Cert.KernelIdeal.Gen Cert.KernelIdeal.SageBlocks Cert.Sage
open Cert.ReferenceIdeal.SageRef (mean)

/-! ## The host operations, for any float values -/

section Host

variable {F : FTy → Type} [FloatOps F]
variable (m : (ℓ : Loc nD τ sig) → Buf (Elt F) ℓ) (ρ : Dev nD → PrngReg)

/-- Before the first region: its first operand is the neighbour mean of the node features. -/
theorem host0_agg (c : Dev nD) : W3 m ρ c (Proc.devRef .tc main_v21)
    = mean (F := F) (m ((c : Thread nD τ).loc main_arg0)) (m ((c : Thread nD τ).loc main_arg1)) := by
  dsimp only [W3, W2, W1]
  after_results_simp
  rfl
/-- Before the first region: the arguments it reads are as launched, the bias reshaped to a row. -/
theorem host0_arg0 (c : Dev nD) : W3 m ρ c (Proc.devRef .tc main_arg0) = m ((c : Thread nD τ).loc main_arg0) := by
  dsimp only [W3, W2, W1]
  after_results_simp
theorem host0_arg2 (c : Dev nD) : W3 m ρ c (Proc.devRef .tc main_arg2) = m ((c : Thread nD τ).loc main_arg2) := by
  dsimp only [W3, W2, W1]
  after_results_simp
theorem host0_arg4 (c : Dev nD) : W3 m ρ c (Proc.devRef .tc main_arg4) = m ((c : Thread nD τ).loc main_arg4) := by
  dsimp only [W3, W2, W1]
  after_results_simp
theorem host0_bias (c : Dev nD) : W3 m ρ c (Proc.devRef .tc main_v22)
    = shapeCast S1x128 (m ((c : Thread nD τ).loc main_arg3)) shapeCasts_S128_S1x128 := by
  dsimp only [W3, W2, W1]
  after_results_simp
  rfl

/-- The first region and the host operations before it leave the other arguments as launched. -/
theorem exit0_arg1 (c : Dev nD) : W4 m ρ c (Proc.devRef .tc main_arg1) = m ((c : Thread nD τ).loc main_arg1) := by
  refine (W4_of_ne m ρ c main_arg1 (by decide)).trans ?_
  dsimp only [W3, W2, W1]
  after_results_simp
theorem exit0_arg5 (c : Dev nD) : W4 m ρ c (Proc.devRef .tc main_arg5) = m ((c : Thread nD τ).loc main_arg5) := by
  refine (W4_of_ne m ρ c main_arg5 (by decide)).trans ?_
  dsimp only [W3, W2, W1]
  after_results_simp
theorem exit0_arg6 (c : Dev nD) : W4 m ρ c (Proc.devRef .tc main_arg6) = m ((c : Thread nD τ).loc main_arg6) := by
  refine (W4_of_ne m ρ c main_arg6 (by decide)).trans ?_
  dsimp only [W3, W2, W1]
  after_results_simp
theorem exit0_arg7 (c : Dev nD) : W4 m ρ c (Proc.devRef .tc main_arg7) = m ((c : Thread nD τ).loc main_arg7) := by
  refine (W4_of_ne m ρ c main_arg7 (by decide)).trans ?_
  dsimp only [W3, W2, W1]
  after_results_simp

/-- Between the regions: the second region's first operand is the neighbour mean of the first region's output. -/
theorem host1_agg (c : Dev nD) : W7 m ρ c (Proc.devRef .tc main_v45)
    = mean (F := F) (W4 m ρ c (Proc.devRef .tc main_v23)) (W4 m ρ c (Proc.devRef .tc main_arg1)) := by
  dsimp only [W7, W6, W5]
  after_results_simp
  rfl
/-- Between the regions: the other buffers the second region reads are as the first region left them. -/
theorem host1_v23 (c : Dev nD) : W7 m ρ c (Proc.devRef .tc main_v23) = W4 m ρ c (Proc.devRef .tc main_v23) := by
  dsimp only [W7, W6, W5]
  after_results_simp
theorem host1_arg5 (c : Dev nD) : W7 m ρ c (Proc.devRef .tc main_arg5) = W4 m ρ c (Proc.devRef .tc main_arg5) := by
  dsimp only [W7, W6, W5]
  after_results_simp
theorem host1_arg7 (c : Dev nD) : W7 m ρ c (Proc.devRef .tc main_arg7) = W4 m ρ c (Proc.devRef .tc main_arg7) := by
  dsimp only [W7, W6, W5]
  after_results_simp
theorem host1_bias (c : Dev nD) : W7 m ρ c (Proc.devRef .tc main_v46)
    = shapeCast S1x256 (W4 m ρ c (Proc.devRef .tc main_arg6)) shapeCasts_S256_S1x256 := by
  dsimp only [W7, W6, W5]
  after_results_simp
  rfl

end Host

/-! ## The arguments, as arrays of extended reals -/

variable (m : (ℓ : Loc nD τ sig) → Buf (Elt Ideal) ℓ) (ρ : Dev nD → PrngReg)

/-- The node features. -/
abbrev feat (c : Dev nD) : S50000x128.Idx → EReal := m ((c : Thread nD τ).loc main_arg0)
/-- The edge list: row 0 the sources, row 1 the destinations. -/
abbrev edges (c : Dev nD) : S2x800000.Idx → BitVec 32 := m ((c : Thread nD τ).loc main_arg1)
abbrev w1l (c : Dev nD) : S128x128.Idx → EReal := m ((c : Thread nD τ).loc main_arg2)
abbrev b1 (c : Dev nD) : S128.Idx → EReal := m ((c : Thread nD τ).loc main_arg3)
abbrev w1r (c : Dev nD) : S128x128.Idx → EReal := m ((c : Thread nD τ).loc main_arg4)
abbrev w2l (c : Dev nD) : S256x128.Idx → EReal := m ((c : Thread nD τ).loc main_arg5)
abbrev b2 (c : Dev nD) : S256.Idx → EReal := m ((c : Thread nD τ).loc main_arg6)
abbrev w2r (c : Dev nD) : S256x128.Idx → EReal := m ((c : Thread nD τ).loc main_arg7)

/-- The first layer's output. -/
def hidden (c : Dev nD) : S50000x128.Idx → EReal :=
  layer128 (mean (F := Ideal) (feat m c) (edges m c)) (feat m c) (w1l m c) (w1r m c) (b1 m c)

/-- A bias reshaped to a row and read back as a vector is the bias. -/
theorem row0_cast128 (b : S128.Idx → EReal) : row0 (shapeCast S1x128 b shapeCasts_S128_S1x128) = b := by
  funext i
  obtain ⟨q, rfl⟩ : ∃ q : Fin 128, i = ix1 q := ⟨i 0, eq_ix1 i⟩
  rw [row0_ix1]; exact shapeCast_a_1a_apply b _ 0 q
theorem row0_cast256 (b : S256.Idx → EReal) : row0 (shapeCast S1x256 b shapeCasts_S256_S1x256) = b := by
  funext i
  obtain ⟨q, rfl⟩ : ∃ q : Fin 256, i = ix1 q := ⟨i 0, eq_ix1 i⟩
  rw [row0_ix1]; exact shapeCast_a_1a_apply b _ 0 q

/-- The first region leaves the first layer's output in its result array. -/
theorem exit0 (c : Dev nD) : W4 m ρ c (Proc.devRef .tc main_v23) = hidden m c := by
  refine (W4_arr m ρ c 5).trans ?_
  refine (arr0 (V3 m ρ) c).trans ?_
  exact layer128_congr (host0_agg m ρ c) (host0_arg0 m ρ c) (host0_arg2 m ρ c) (host0_arg4 m ρ c)
    ((congrArg row0 (host0_bias m ρ c)).trans (row0_cast128 _))

/-- THE RESULT: the second region leaves, in @main's result, the second layer function of the neighbour mean of the
    first layer's output, of that output and of the second layer's weights and bias. -/
theorem result (c : Dev nD) : W8 m ρ c (Proc.devRef .tc main_v47)
    = layer256 (mean (F := Ideal) (hidden m c) (edges m c)) (hidden m c) (w2l m c) (w2r m c) (b2 m c) := by
  refine (W8_arr m ρ c 5).trans ?_
  refine (arr1 (V7 m ρ) c).trans ?_
  exact layer256_congr
    ((host1_agg m ρ c).trans (congrArg₂ (mean (F := Ideal)) (exit0 m ρ c) (exit0_arg1 m ρ c)))
    ((host1_v23 m ρ c).trans (exit0 m ρ c))
    ((host1_arg5 m ρ c).trans (exit0_arg5 m ρ c))
    ((host1_arg7 m ρ c).trans (exit0_arg7 m ρ c))
    ((congrArg row0 ((host1_bias m ρ c).trans
      (congrArg (fun b => shapeCast S1x256 b shapeCasts_S256_S1x256) (exit0_arg6 m ρ c)))).trans (row0_cast256 _))

end Cert.KernelIdeal.SageValue

end
-- ==== Proof.lean ====
/-
  A two-layer GraphSAGE network with mean aggregation: the kernel program against its jnp reference, as functions on
  the extended reals.

  Both programs compute, for each of the two layers,
      h' = relu( mean(h) · Wlᵀ + b + h · Wrᵀ ),
  where `mean(h)` gathers the rows of `h` at the edges' sources, adds them into the rows of the edges' destinations and
  divides each row by the destination's in-degree clamped below at one.  The neighbour mean is computed by the same
  host operations in both programs (Proof/RefValue.lean `mean`; Proof/KernelValue.lean reads the kernel program's
  copy of them as that function).  The dense part is computed by the reference with two `dot_general`s against the
  transposed weight matrices, and by the kernel program in a kernel region tiled over blocks of 5000 nodes, the
  operands rounded to bf16 on the way into the matrix unit — the identity on the extended reals.  Index by index both
  are the layer function of Proof/LayerSpec.lean: the kernel adds the bias after the second product, the reference
  before it, and addition on the extended reals is commutative and associative, so the two agree at EVERY input:
  the precondition (finite inputs) is not used.

  The modules: Proof/LayerSpec.lean (the layer function); Proof/KernelBody.lean (a kernel body's stored value at an
  entry of its block); Proof/KernelBlocks.lean (a region's output array as the layer function of the arrays it is
  entered with); Proof/KernelRun.lean (the kernel program's run with its result named); Proof/KernelValue.lean (the
  buffers followed through @main: the result as the two layers applied in turn); Proof/RefValue.lean (the reference's
  result as the same).  The three frames are the generated ones; the ideal pass rewrote nothing, so `preserves` asks
  nothing.
-/
import proofs.«166157_j37177236914658_1_alg».proof.Defs
import proofs.«166157_j37177236914658_1_alg».proof.Proof.Gen.Kernel
import proofs.«166157_j37177236914658_1_alg».proof.Proof.Gen.Kernel.Frame
import proofs.«166157_j37177236914658_1_alg».proof.Proof.Gen.KernelIdeal
import proofs.«166157_j37177236914658_1_alg».proof.Proof.Gen.KernelIdeal.Frame
import proofs.«166157_j37177236914658_1_alg».proof.Proof.Gen.ReferenceIdeal
import proofs.«166157_j37177236914658_1_alg».proof.Proof.Gen.Pre_finite_inputs
import proofs.«166157_j37177236914658_1_alg».proof.Proof.Gen.ReferenceIdeal.Run
import proofs.«166157_j37177236914658_1_alg».proof.Proof.Gen.ReferenceIdeal.Read
import proofs.«166157_j37177236914658_1_alg».proof.Proof.KernelRun
import proofs.«166157_j37177236914658_1_alg».proof.Proof.KernelValue
import proofs.«166157_j37177236914658_1_alg».proof.Proof.RefValue
import Idealize.ShloMosaic.Adequacy
import Idealize.ShloMosaic.Init

set_option maxRecDepth 16384

noncomputable section

namespace Cert.Proof

open Idealize.ShloMosaic Idealize.SL.Sem
open Cert.Sage Cert.KernelIdeal.SageValue
open Cert.ReferenceIdeal.SageRef (mean)

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the second layer function of the neighbour mean of
    the first layer's output, of that output and of the second layer's parameters. -/
theorem algebraic : Cert.algebraic_KernelIdeal_ReferenceIdeal := by
  intro m ρ m' ρ' _ hagree
  refine ⟨fun c => layer256 (mean (F := Ideal) (hidden m c) (edges m c)) (hidden m c) (w2l m c) (w2r m c) (b2 m c), ?_, ?_⟩
  · exact (θ_run Cert.KernelIdeal.defs _ _).mono
      (fun r h c => ⟨(h c).1.trans (Cert.KernelIdeal.SageValue.result m ρ c), (h c).2⟩)
      (Cert.KernelIdeal.SageRun.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, Cert.ReferenceIdeal.SageRef.layer2]
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
